-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x128 : Shape := ⟨4, ![16, 512, 64, 128]⟩
abbrev S_ : Shape := ⟨0, ![]⟩

class Facts : Prop where
  bcast_S_S16x512x64x128 : S_.BroadcastsInDim S16x512x64x128 (![] : Fin 0 → Fin S16x512x64x128.rank)
  reducesTo_S16x512x64x128_S_d0_1_2_3 : S16x512x64x128.ReducesTo [0, 1, 2, 3] S_
  h_S_ : 0 < S_.numel

variable [Facts]

def fn {F : FTy → Type} [FloatOps F] (main_arg0 : FVec F S16x512x64x128 .f32) : IVec S_ 1 :=
  let main_v0 : FVec F S16x512x64x128 .f32 := Host.absf main_arg0
  let main_cst : FVec F S_ .f32 := constant S_ .f32 0x7F800000#32
  let main_v1 : FVec F S16x512x64x128 .f32 := broadcastInDim S16x512x64x128 ![] bcast_S_S16x512x64x128 main_cst
  let main_v2 : IVec S16x512x64x128 1 := cmpf .olt main_v0 main_v1
  let main_c : IVec S_ 1 := constantI S_ 1 1#1
  let main_v3 : IVec S_ 1 := (fun x v => Host.reduce IntOp.andi x v reducesTo_S16x512x64x128_S_d0_1_2_3 h_S_) main_v2 main_c
  main_v3
-- ==== Kernel.lean ====
abbrev S16x512x64x128 : Shape := ⟨4, ![16, 512, 64, 128]⟩
abbrev S1x128x64x128 : Shape := ⟨4, ![1, 128, 64, 128]⟩
abbrev S1x1x64x128 : Shape := ⟨4, ![1, 1, 64, 128]⟩
abbrev S1x64x128 : Shape := ⟨3, ![1, 64, 128]⟩

abbrev nBuf : Space → Nat
  | .hbm => 2
  | .vmem => 5
  | .smem => 0
  | _ => 0

abbrev bufTy : (tb : Table) → Fin (tcTables nBuf tb) → BufTy
  | .hbm, ⟨0, _⟩ => ⟨S16x512x64x128, .f32⟩
  | .hbm, ⟨1, _⟩ => ⟨S16x512x64x128, .f32⟩
  | .local _ .vmem, ⟨0, _⟩ => ⟨S1x128x64x128, .f32⟩
  | .local _ .vmem, ⟨1, _⟩ => ⟨S1x128x64x128, .f32⟩
  | .local _ .vmem, ⟨2, _⟩ => ⟨S1x128x64x128, .f32⟩
  | .local _ .vmem, ⟨3, _⟩ => ⟨S1x128x64x128, .f32⟩
  | .local _ .vmem, ⟨4, _⟩ => ⟨S1x1x64x128, .f32⟩
  | _, _ => ⟨S16x512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x64x128_S1x1x64x128_0_0_0_0 : ∀ a, (![0, 0, 0, 0] : Fin 4 → Nat) a + S1x1x64x128.size a ≤ S1x1x64x128.size a
  h_S1x1x64x128 : 0 < S1x1x64x128.numel
  shapeCasts_S1x1x64x128_S1x1x64x128 : S1x1x64x128.ShapeCasts S1x1x64x128
  shapeCasts_S1x1x64x128_S1x64x128 : S1x1x64x128.ShapeCasts S1x64x128
  inb_S1x128x64x128_S1x1x64x128_0_0_0_0 : ∀ a, (![0, 0, 0, 0] : Fin 4 → Nat) a + S1x1x64x128.size a ≤ S1x128x64x128.size a
  shapeCasts_S1x64x128_S1x1x64x128 : S1x64x128.ShapeCasts S1x1x64x128
  inb_S1x128x64x128_S1x1x64x128_0_1_0_0 : ∀ a, (![0, 1, 0, 0] : Fin 4 → Nat) a + S1x1x64x128.size a ≤ S1x128x64x128.size a
  inb_S1x128x64x128_S1x1x64x128_0_2_0_0 : ∀ a, (![0, 2, 0, 0] : Fin 4 → Nat) a + S1x1x64x128.size a ≤ S1x128x64x128.size a
  inb_S1x128x64x128_S1x1x64x128_0_3_0_0 : ∀ a, (![0, 3, 0, 0] : Fin 4 → Nat) a + S1x1x64x128.size a ≤ S1x128x64x128.size a
  inb_S1x128x64x128_S1x1x64x128_0_4_0_0 : ∀ a, (![0, 4, 0, 0] : Fin 4 → Nat) a + S1x1x64x128.size a ≤ S1x128x64x128.size a
  inb_S1x128x64x128_S1x1x64x128_0_5_0_0 : ∀ a, (![0, 5, 0, 0] : Fin 4 → Nat) a + S1x1x64x128.size a ≤ S1x128x64x128.size a
  inb_S1x128x64x128_S1x1x64x128_0_6_0_0 : ∀ a, (![0, 6, 0, 0] : Fin 4 → Nat) a + S1x1x64x128.size a ≤ S1x128x64x128.size a
  inb_S1x128x64x128_S1x1x64x128_0_7_0_0 : ∀ a, (![0, 7, 0, 0] : Fin 4 → Nat) a + S1x1x64x128.size a ≤ S1x128x64x128.size a
  inb_S1x128x64x128_S1x1x64x128_0_8_0_0 : ∀ a, (![0, 8, 0, 0] : Fin 4 → Nat) a + S1x1x64x128.size a ≤ S1x128x64x128.size a
  inb_S1x128x64x128_S1x1x64x128_0_9_0_0 : ∀ a, (![0, 9, 0, 0] : Fin 4 → Nat) a + S1x1x64x128.size a ≤ S1x128x64x128.size a
  inb_S1x128x64x128_S1x1x64x128_0_10_0_0 : ∀ a, (![0, 10, 0, 0] : Fin 4 → Nat) a + S1x1x64x128.size a ≤ S1x128x64x128.size a
  inb_S1x128x64x128_S1x1x64x128_0_11_0_0 : ∀ a, (![0, 11, 0, 0] : Fin 4 → Nat) a + S1x1x64x128.size a ≤ S1x128x64x128.size a
  inb_S1x128x64x128_S1x1x64x128_0_12_0_0 : ∀ a, (![0, 12, 0, 0] : Fin 4 → Nat) a + S1x1x64x128.size a ≤ S1x128x64x128.size a
  inb_S1x128x64x128_S1x1x64x128_0_13_0_0 : ∀ a, (![0, 13, 0, 0] : Fin 4 → Nat) a + S1x1x64x128.size a ≤ S1x128x64x128.size a
  inb_S1x128x64x128_S1x1x64x128_0_14_0_0 : ∀ a, (![0, 14, 0, 0] : Fin 4 → Nat) a + S1x1x64x128.size a ≤ S1x128x64x128.size a
  inb_S1x128x64x128_S1x1x64x128_0_15_0_0 : ∀ a, (![0, 15, 0, 0] : Fin 4 → Nat) a + S1x1x64x128.size a ≤ S1x128x64x128.size a
  inb_S1x128x64x128_S1x1x64x128_0_16_0_0 : ∀ a, (![0, 16, 0, 0] : Fin 4 → Nat) a + S1x1x64x128.size a ≤ S1x128x64x128.size a
  inb_S1x128x64x128_S1x1x64x128_0_17_0_0 : ∀ a, (![0, 17, 0, 0] : Fin 4 → Nat) a + S1x1x64x128.size a ≤ S1x128x64x128.size a
  inb_S1x128x64x128_S1x1x64x128_0_18_0_0 : ∀ a, (![0, 18, 0, 0] : Fin 4 → Nat) a + S1x1x64x128.size a ≤ S1x128x64x128.size a
  inb_S1x128x64x128_S1x1x64x128_0_19_0_0 : ∀ a, (![0, 19, 0, 0] : Fin 4 → Nat) a + S1x1x64x128.size a ≤ S1x128x64x128.size a
  inb_S1x128x64x128_S1x1x64x128_0_20_0_0 : ∀ a, (![0, 20, 0, 0] : Fin 4 → Nat) a + S1x1x64x128.size a ≤ S1x128x64x128.size a
  inb_S1x128x64x128_S1x1x64x128_0_21_0_0 : ∀ a, (![0, 21, 0, 0] : Fin 4 → Nat) a + S1x1x64x128.size a ≤ S1x128x64x128.size a
  inb_S1x128x64x128_S1x1x64x128_0_22_0_0 : ∀ a, (![0, 22, 0, 0] : Fin 4 → Nat) a + S1x1x64x128.size a ≤ S1x128x64x128.size a
  inb_S1x128x64x128_S1x1x64x128_0_23_0_0 : ∀ a, (![0, 23, 0, 0] : Fin 4 → Nat) a + S1x1x64x128.size a ≤ S1x128x64x128.size a
  inb_S1x128x64x128_S1x1x64x128_0_24_0_0 : ∀ a, (![0, 24, 0, 0] : Fin 4 → Nat) a + S1x1x64x128.size a ≤ S1x128x64x128.size a
  inb_S1x128x64x128_S1x1x64x128_0_25_0_0 : ∀ a, (![0, 25, 0, 0] : Fin 4 → Nat) a + S1x1x64x128.size a ≤ S1x128x64x128.size a
  inb_S1x128x64x128_S1x1x64x128_0_26_0_0 : ∀ a, (![0, 26, 0, 0] : Fin 4 → Nat) a + S1x1x64x128.size a ≤ S1x128x64x128.size a
  inb_S1x128x64x128_S1x1x64x128_0_27_0_0 : ∀ a, (![0, 27, 0, 0] : Fin 4 → Nat) a + S1x1x64x128.size a ≤ S1x128x64x128.size a
  inb_S1x128x64x128_S1x1x64x128_0_28_0_0 : ∀ a, (![0, 28, 0, 0] : Fin 4 → Nat) a + S1x1x64x128.size a ≤ S1x128x64x128.size a
  inb_S1x128x64x128_S1x1x64x128_0_29_0_0 : ∀ a, (![0, 29, 0, 0] : Fin 4 → Nat) a + S1x1x64x128.size a ≤ S1x128x64x128.size a
  inb_S1x128x64x128_S1x1x64x128_0_30_0_0 : ∀ a, (![0, 30, 0, 0] : Fin 4 → Nat) a + S1x1x64x128.size a ≤ S1x128x64x128.size a
  inb_S1x128x64x128_S1x1x64x128_0_31_0_0 : ∀ a, (![0, 31, 0, 0] : Fin 4 → Nat) a + S1x1x64x128.size a ≤ S1x128x64x128.size a
  inb_S1x128x64x128_S1x1x64x128_0_32_0_0 : ∀ a, (![0, 32, 0, 0] : Fin 4 → Nat) a + S1x1x64x128.size a ≤ S1x128x64x128.size a
  inb_S1x128x64x128_S1x1x64x128_0_33_0_0 : ∀ a, (![0, 33, 0, 0] : Fin 4 → Nat) a + S1x1x64x128.size a ≤ S1x128x64x128.size a
  inb_S1x128x64x128_S1x1x64x128_0_34_0_0 : ∀ a, (![0, 34, 0, 0] : Fin 4 → Nat) a + S1x1x64x128.size a ≤ S1x128x64x128.size a
  inb_S1x128x64x128_S1x1x64x128_0_35_0_0 : ∀ a, (![0, 35, 0, 0] : Fin 4 → Nat) a + S1x1x64x128.size a ≤ S1x128x64x128.size a
  inb_S1x128x64x128_S1x1x64x128_0_36_0_0 : ∀ a, (![0, 36, 0, 0] : Fin 4 → Nat) a + S1x1x64x128.size a ≤ S1x128x64x128.size a
  inb_S1x128x64x128_S1x1x64x128_0_37_0_0 : ∀ a, (![0, 37, 0, 0] : Fin 4 → Nat) a + S1x1x64x128.size a ≤ S1x128x64x128.size a
  inb_S1x128x64x128_S1x1x64x128_0_38_0_0 : ∀ a, (![0, 38, 0, 0] : Fin 4 → Nat) a + S1x1x64x128.size a ≤ S1x128x64x128.size a
  inb_S1x128x64x128_S1x1x64x128_0_39_0_0 : ∀ a, (![0, 39, 0, 0] : Fin 4 → Nat) a + S1x1x64x128.size a ≤ S1x128x64x128.size a
  inb_S1x128x64x128_S1x1x64x128_0_40_0_0 : ∀ a, (![0, 40, 0, 0] : Fin 4 → Nat) a + S1x1x64x128.size a ≤ S1x128x64x128.size a
  inb_S1x128x64x128_S1x1x64x128_0_41_0_0 : ∀ a, (![0, 41, 0, 0] : Fin 4 → Nat) a + S1x1x64x128.size a ≤ S1x128x64x128.size a
  inb_S1x128x64x128_S1x1x64x128_0_42_0_0 : ∀ a, (![0, 42, 0, 0] : Fin 4 → Nat) a + S1x1x64x128.size a ≤ S1x128x64x128.size a
  inb_S1x128x64x128_S1x1x64x128_0_43_0_0 : ∀ a, (![0, 43, 0, 0] : Fin 4 → Nat) a + S1x1x64x128.size a ≤ S1x128x64x128.size a
  inb_S1x128x64x128_S1x1x64x128_0_44_0_0 : ∀ a, (![0, 44, 0, 0] : Fin 4 → Nat) a + S1x1x64x128.size a ≤ S1x128x64x128.size a
  inb_S1x128x64x128_S1x1x64x128_0_45_0_0 : ∀ a, (![0, 45, 0, 0] : Fin 4 → Nat) a + S1x1x64x128.size a ≤ S1x128x64x128.size a
  inb_S1x128x64x128_S1x1x64x128_0_46_0_0 : ∀ a, (![0, 46, 0, 0] : Fin 4 → Nat) a + S1x1x64x128.size a ≤ S1x128x64x128.size a
  inb_S1x128x64x128_S1x1x64x128_0_47_0_0 : ∀ a, (![0, 47, 0, 0] : Fin 4 → Nat) a + S1x1x64x128.size a ≤ S1x128x64x128.size a
  inb_S1x128x64x128_S1x1x64x128_0_48_0_0 : ∀ a, (![0, 48, 0, 0] : Fin 4 → Nat) a + S1x1x64x128.size a ≤ S1x128x64x128.size a
  inb_S1x128x64x128_S1x1x64x128_0_49_0_0 : ∀ a, (![0, 49, 0, 0] : Fin 4 → Nat) a + S1x1x64x128.size a ≤ S1x128x64x128.size a
  inb_S1x128x64x128_S1x1x64x128_0_50_0_0 : ∀ a, (![0, 50, 0, 0] : Fin 4 → Nat) a + S1x1x64x128.size a ≤ S1x128x64x128.size a
  inb_S1x128x64x128_S1x1x64x128_0_51_0_0 : ∀ a, (![0, 51, 0, 0] : Fin 4 → Nat) a + S1x1x64x128.size a ≤ S1x128x64x128.size a
  inb_S1x128x64x128_S1x1x64x128_0_52_0_0 : ∀ a, (![0, 52, 0, 0] : Fin 4 → Nat) a + S1x1x64x128.size a ≤ S1x128x64x128.size a
  inb_S1x128x64x128_S1x1x64x128_0_53_0_0 : ∀ a, (![0, 53, 0, 0] : Fin 4 → Nat) a + S1x1x64x128.size a ≤ S1x128x64x128.size a
  inb_S1x128x64x128_S1x1x64x128_0_54_0_0 : ∀ a, (![0, 54, 0, 0] : Fin 4 → Nat) a + S1x1x64x128.size a ≤ S1x128x64x128.size a
  inb_S1x128x64x128_S1x1x64x128_0_55_0_0 : ∀ a, (![0, 55, 0, 0] : Fin 4 → Nat) a + S1x1x64x128.size a ≤ S1x128x64x128.size a
  inb_S1x128x64x128_S1x1x64x128_0_56_0_0 : ∀ a, (![0, 56, 0, 0] : Fin 4 → Nat) a + S1x1x64x128.size a ≤ S1x128x64x128.size a
  inb_S1x128x64x128_S1x1x64x128_0_57_0_0 : ∀ a, (![0, 57, 0, 0] : Fin 4 → Nat) a + S1x1x64x128.size a ≤ S1x128x64x128.size a
  inb_S1x128x64x128_S1x1x64x128_0_58_0_0 : ∀ a, (![0, 58, 0, 0] : Fin 4 → Nat) a + S1x1x64x128.size a ≤ S1x128x64x128.size a
  inb_S1x128x64x128_S1x1x64x128_0_59_0_0 : ∀ a, (![0, 59, 0, 0] : Fin 4 → Nat) a + S1x1x64x128.size a ≤ S1x128x64x128.size a
  inb_S1x128x64x128_S1x1x64x128_0_60_0_0 : ∀ a, (![0, 60, 0, 0] : Fin 4 → Nat) a + S1x1x64x128.size a ≤ S1x128x64x128.size a
  inb_S1x128x64x128_S1x1x64x128_0_61_0_0 : ∀ a, (![0, 61, 0, 0] : Fin 4 → Nat) a + S1x1x64x128.size a ≤ S1x128x64x128.size a
  inb_S1x128x64x128_S1x1x64x128_0_62_0_0 : ∀ a, (![0, 62, 0, 0] : Fin 4 → Nat) a + S1x1x64x128.size a ≤ S1x128x64x128.size a
  inb_S1x128x64x128_S1x1x64x128_0_63_0_0 : ∀ a, (![0, 63, 0, 0] : Fin 4 → Nat) a + S1x1x64x128.size a ≤ S1x128x64x128.size a
  inb_S1x128x64x128_S1x1x64x128_0_64_0_0 : ∀ a, (![0, 64, 0, 0] : Fin 4 → Nat) a + S1x1x64x128.size a ≤ S1x128x64x128.size a
  inb_S1x128x64x128_S1x1x64x128_0_65_0_0 : ∀ a, (![0, 65, 0, 0] : Fin 4 → Nat) a + S1x1x64x128.size a ≤ S1x128x64x128.size a
  inb_S1x128x64x128_S1x1x64x128_0_66_0_0 : ∀ a, (![0, 66, 0, 0] : Fin 4 → Nat) a + S1x1x64x128.size a ≤ S1x128x64x128.size a
  inb_S1x128x64x128_S1x1x64x128_0_67_0_0 : ∀ a, (![0, 67, 0, 0] : Fin 4 → Nat) a + S1x1x64x128.size a ≤ S1x128x64x128.size a
  inb_S1x128x64x128_S1x1x64x128_0_68_0_0 : ∀ a, (![0, 68, 0, 0] : Fin 4 → Nat) a + S1x1x64x128.size a ≤ S1x128x64x128.size a
  inb_S1x128x64x128_S1x1x64x128_0_69_0_0 : ∀ a, (![0, 69, 0, 0] : Fin 4 → Nat) a + S1x1x64x128.size a ≤ S1x128x64x128.size a
  inb_S1x128x64x128_S1x1x64x128_0_70_0_0 : ∀ a, (![0, 70, 0, 0] : Fin 4 → Nat) a + S1x1x64x128.size a ≤ S1x128x64x128.size a
  inb_S1x128x64x128_S1x1x64x128_0_71_0_0 : ∀ a, (![0, 71, 0, 0] : Fin 4 → Nat) a + S1x1x64x128.size a ≤ S1x128x64x128.size a
  inb_S1x128x64x128_S1x1x64x128_0_72_0_0 : ∀ a, (![0, 72, 0, 0] : Fin 4 → Nat) a + S1x1x64x128.size a ≤ S1x128x64x128.size a
  inb_S1x128x64x128_S1x1x64x128_0_73_0_0 : ∀ a, (![0, 73, 0, 0] : Fin 4 → Nat) a + S1x1x64x128.size a ≤ S1x128x64x128.size a
  inb_S1x128x64x128_S1x1x64x128_0_74_0_0 : ∀ a, (![0, 74, 0, 0] : Fin 4 → Nat) a + S1x1x64x128.size a ≤ S1x128x64x128.size a
  inb_S1x128x64x128_S1x1x64x128_0_75_0_0 : ∀ a, (![0, 75, 0, 0] : Fin 4 → Nat) a + S1x1x64x128.size a ≤ S1x128x64x128.size a
  inb_S1x128x64x128_S1x1x64x128_0_76_0_0 : ∀ a, (![0, 76, 0, 0] : Fin 4 → Nat) a + S1x1x64x128.size a ≤ S1x128x64x128.size a
  inb_S1x128x64x128_S1x1x64x128_0_77_0_0 : ∀ a, (![0, 77, 0, 0] : Fin 4 → Nat) a + S1x1x64x128.size a ≤ S1x128x64x128.size a
  inb_S1x128x64x128_S1x1x64x128_0_78_0_0 : ∀ a, (![0, 78, 0, 0] : Fin 4 → Nat) a + S1x1x64x128.size a ≤ S1x128x64x128.size a
  inb_S1x128x64x128_S1x1x64x128_0_79_0_0 : ∀ a, (![0, 79, 0, 0] : Fin 4 → Nat) a + S1x1x64x128.size a ≤ S1x128x64x128.size a
  inb_S1x128x64x128_S1x1x64x128_0_80_0_0 : ∀ a, (![0, 80, 0, 0] : Fin 4 → Nat) a + S1x1x64x128.size a ≤ S1x128x64x128.size a
  inb_S1x128x64x128_S1x1x64x128_0_81_0_0 : ∀ a, (![0, 81, 0, 0] : Fin 4 → Nat) a + S1x1x64x128.size a ≤ S1x128x64x128.size a
  inb_S1x128x64x128_S1x1x64x128_0_82_0_0 : ∀ a, (![0, 82, 0, 0] : Fin 4 → Nat) a + S1x1x64x128.size a ≤ S1x128x64x128.size a
  inb_S1x128x64x128_S1x1x64x128_0_83_0_0 : ∀ a, (![0, 83, 0, 0] : Fin 4 → Nat) a + S1x1x64x128.size a ≤ S1x128x64x128.size a
  inb_S1x128x64x128_S1x1x64x128_0_84_0_0 : ∀ a, (![0, 84, 0, 0] : Fin 4 → Nat) a + S1x1x64x128.size a ≤ S1x128x64x128.size a
  inb_S1x128x64x128_S1x1x64x128_0_85_0_0 : ∀ a, (![0, 85, 0, 0] : Fin 4 → Nat) a + S1x1x64x128.size a ≤ S1x128x64x128.size a
  inb_S1x128x64x128_S1x1x64x128_0_86_0_0 : ∀ a, (![0, 86, 0, 0] : Fin 4 → Nat) a + S1x1x64x128.size a ≤ S1x128x64x128.size a
  inb_S1x128x64x128_S1x1x64x128_0_87_0_0 : ∀ a, (![0, 87, 0, 0] : Fin 4 → Nat) a + S1x1x64x128.size a ≤ S1x128x64x128.size a
  inb_S1x128x64x128_S1x1x64x128_0_88_0_0 : ∀ a, (![0, 88, 0, 0] : Fin 4 → Nat) a + S1x1x64x128.size a ≤ S1x128x64x128.size a
  inb_S1x128x64x128_S1x1x64x128_0_89_0_0 : ∀ a, (![0, 89, 0, 0] : Fin 4 → Nat) a + S1x1x64x128.size a ≤ S1x128x64x128.size a
  inb_S1x128x64x128_S1x1x64x128_0_90_0_0 : ∀ a, (![0, 90, 0, 0] : Fin 4 → Nat) a + S1x1x64x128.size a ≤ S1x128x64x128.size a
  inb_S1x128x64x128_S1x1x64x128_0_91_0_0 : ∀ a, (![0, 91, 0, 0] : Fin 4 → Nat) a + S1x1x64x128.size a ≤ S1x128x64x128.size a
  inb_S1x128x64x128_S1x1x64x128_0_92_0_0 : ∀ a, (![0, 92, 0, 0] : Fin 4 → Nat) a + S1x1x64x128.size a ≤ S1x128x64x128.size a
  inb_S1x128x64x128_S1x1x64x128_0_93_0_0 : ∀ a, (![0, 93, 0, 0] : Fin 4 → Nat) a + S1x1x64x128.size a ≤ S1x128x64x128.size a
  inb_S1x128x64x128_S1x1x64x128_0_94_0_0 : ∀ a, (![0, 94, 0, 0] : Fin 4 → Nat) a + S1x1x64x128.size a ≤ S1x128x64x128.size a
  inb_S1x128x64x128_S1x1x64x128_0_95_0_0 : ∀ a, (![0, 95, 0, 0] : Fin 4 → Nat) a + S1x1x64x128.size a ≤ S1x128x64x128.size a
  inb_S1x128x64x128_S1x1x64x128_0_96_0_0 : ∀ a, (![0, 96, 0, 0] : Fin 4 → Nat) a + S1x1x64x128.size a ≤ S1x128x64x128.size a
  inb_S1x128x64x128_S1x1x64x128_0_97_0_0 : ∀ a, (![0, 97, 0, 0] : Fin 4 → Nat) a + S1x1x64x128.size a ≤ S1x128x64x128.size a
  inb_S1x128x64x128_S1x1x64x128_0_98_0_0 : ∀ a, (![0, 98, 0, 0] : Fin 4 → Nat) a + S1x1x64x128.size a ≤ S1x128x64x128.size a
  inb_S1x128x64x128_S1x1x64x128_0_99_0_0 : ∀ a, (![0, 99, 0, 0] : Fin 4 → Nat) a + S1x1x64x128.size a ≤ S1x128x64x128.size a
  inb_S1x128x64x128_S1x1x64x128_0_100_0_0 : ∀ a, (![0, 100, 0, 0] : Fin 4 → Nat) a + S1x1x64x128.size a ≤ S1x128x64x128.size a
  inb_S1x128x64x128_S1x1x64x128_0_101_0_0 : ∀ a, (![0, 101, 0, 0] : Fin 4 → Nat) a + S1x1x64x128.size a ≤ S1x128x64x128.size a
  inb_S1x128x64x128_S1x1x64x128_0_102_0_0 : ∀ a, (![0, 102, 0, 0] : Fin 4 → Nat) a + S1x1x64x128.size a ≤ S1x128x64x128.size a
  inb_S1x128x64x128_S1x1x64x128_0_103_0_0 : ∀ a, (![0, 103, 0, 0] : Fin 4 → Nat) a + S1x1x64x128.size a ≤ S1x128x64x128.size a
  inb_S1x128x64x128_S1x1x64x128_0_104_0_0 : ∀ a, (![0, 104, 0, 0] : Fin 4 → Nat) a + S1x1x64x128.size a ≤ S1x128x64x128.size a
  inb_S1x128x64x128_S1x1x64x128_0_105_0_0 : ∀ a, (![0, 105, 0, 0] : Fin 4 → Nat) a + S1x1x64x128.size a ≤ S1x128x64x128.size a
  inb_S1x128x64x128_S1x1x64x128_0_106_0_0 : ∀ a, (![0, 106, 0, 0] : Fin 4 → Nat) a + S1x1x64x128.size a ≤ S1x128x64x128.size a
  inb_S1x128x64x128_S1x1x64x128_0_107_0_0 : ∀ a, (![0, 107, 0, 0] : Fin 4 → Nat) a + S1x1x64x128.size a ≤ S1x128x64x128.size a
  inb_S1x128x64x128_S1x1x64x128_0_108_0_0 : ∀ a, (![0, 108, 0, 0] : Fin 4 → Nat) a + S1x1x64x128.size a ≤ S1x128x64x128.size a
  inb_S1x128x64x128_S1x1x64x128_0_109_0_0 : ∀ a, (![0, 109, 0, 0] : Fin 4 → Nat) a + S1x1x64x128.size a ≤ S1x128x64x128.size a
  inb_S1x128x64x128_S1x1x64x128_0_110_0_0 : ∀ a, (![0, 110, 0, 0] : Fin 4 → Nat) a + S1x1x64x128.size a ≤ S1x128x64x128.size a
  inb_S1x128x64x128_S1x1x64x128_0_111_0_0 : ∀ a, (![0, 111, 0, 0] : Fin 4 → Nat) a + S1x1x64x128.size a ≤ S1x128x64x128.size a
  inb_S1x128x64x128_S1x1x64x128_0_112_0_0 : ∀ a, (![0, 112, 0, 0] : Fin 4 → Nat) a + S1x1x64x128.size a ≤ S1x128x64x128.size a
  inb_S1x128x64x128_S1x1x64x128_0_113_0_0 : ∀ a, (![0, 113, 0, 0] : Fin 4 → Nat) a + S1x1x64x128.size a ≤ S1x128x64x128.size a
  inb_S1x128x64x128_S1x1x64x128_0_114_0_0 : ∀ a, (![0, 114, 0, 0] : Fin 4 → Nat) a + S1x1x64x128.size a ≤ S1x128x64x128.size a
  inb_S1x128x64x128_S1x1x64x128_0_115_0_0 : ∀ a, (![0, 115, 0, 0] : Fin 4 → Nat) a + S1x1x64x128.size a ≤ S1x128x64x128.size a
  inb_S1x128x64x128_S1x1x64x128_0_116_0_0 : ∀ a, (![0, 116, 0, 0] : Fin 4 → Nat) a + S1x1x64x128.size a ≤ S1x128x64x128.size a
  inb_S1x128x64x128_S1x1x64x128_0_117_0_0 : ∀ a, (![0, 117, 0, 0] : Fin 4 → Nat) a + S1x1x64x128.size a ≤ S1x128x64x128.size a
  inb_S1x128x64x128_S1x1x64x128_0_118_0_0 : ∀ a, (![0, 118, 0, 0] : Fin 4 → Nat) a + S1x1x64x128.size a ≤ S1x128x64x128.size a
  inb_S1x128x64x128_S1x1x64x128_0_119_0_0 : ∀ a, (![0, 119, 0, 0] : Fin 4 → Nat) a + S1x1x64x128.size a ≤ S1x128x64x128.size a
  inb_S1x128x64x128_S1x1x64x128_0_120_0_0 : ∀ a, (![0, 120, 0, 0] : Fin 4 → Nat) a + S1x1x64x128.size a ≤ S1x128x64x128.size a
  inb_S1x128x64x128_S1x1x64x128_0_121_0_0 : ∀ a, (![0, 121, 0, 0] : Fin 4 → Nat) a + S1x1x64x128.size a ≤ S1x128x64x128.size a
  inb_S1x128x64x128_S1x1x64x128_0_122_0_0 : ∀ a, (![0, 122, 0, 0] : Fin 4 → Nat) a + S1x1x64x128.size a ≤ S1x128x64x128.size a
  inb_S1x128x64x128_S1x1x64x128_0_123_0_0 : ∀ a, (![0, 123, 0, 0] : Fin 4 → Nat) a + S1x1x64x128.size a ≤ S1x128x64x128.size a
  inb_S1x128x64x128_S1x1x64x128_0_124_0_0 : ∀ a, (![0, 124, 0, 0] : Fin 4 → Nat) a + S1x1x64x128.size a ≤ S1x128x64x128.size a
  inb_S1x128x64x128_S1x1x64x128_0_125_0_0 : ∀ a, (![0, 125, 0, 0] : Fin 4 → Nat) a + S1x1x64x128.size a ≤ S1x128x64x128.size a
  inb_S1x128x64x128_S1x1x64x128_0_126_0_0 : ∀ a, (![0, 126, 0, 0] : Fin 4 → Nat) a + S1x1x64x128.size a ≤ S1x128x64x128.size a
  inb_S1x128x64x128_S1x1x64x128_0_127_0_0 : ∀ a, (![0, 127, 0, 0] : Fin 4 → Nat) a + S1x1x64x128.size a ≤ S1x128x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S16x512x64x128.size a
  hwx0_0 : ∀ i : grid0.Coords, EltTy.bits .f32 = 32 ∨ (Rect.block (s := S16x512x64x128) S1x128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x128.size a ≤ S16x512x64x128.size a
  hwx0_1 : ∀ i : grid0.Coords, EltTy.bits .f32 = 32 ∨ (Rect.block (s := S16x512x64x128) S1x128x64x128.size (cc0_transform_1 i) (hinb0_1 i)).WholeWords (EltTy.packing .f32)

variable [Facts₀]

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x64x128 : Shape := ⟨4, ![16, 512, 64, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x512x64x128, .f32⟩
  | .hbm, ⟨1, _⟩ => ⟨S_, .f32⟩
  | .hbm, ⟨2, _⟩ => ⟨S_, .f32⟩
  | .hbm, ⟨3, _⟩ => ⟨S16x512x64x128, .f32⟩
  | _, _ => ⟨S16x512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512x64x128_S16x512x64x128_w1s1p0_0_w512s1p511_0_w1s1p0_0_w1s1p0_0 : S16x512x64x128.ReduceWindows (![1, 512, 1, 1] : Fin 4 → Nat) ![1, 1, 1, 1] ![0, 511, 0, 0] ![0, 0, 0, 0] S16x512x64x128
  h_S_ : 0 < S_.numel

variable [Facts₀]

class Facts : Prop extends Facts₀ where

variable [Facts]
-- ==== Proof.RunningMax.lean ====
/-
  The running maximum of a sequence of extended reals, and of an array along its second axis.

  For a sequence `f : ℕ → EReal`, `pre f n` is the supremum of its first `n` terms (`⊥` when `n = 0`). Three facts are all
  that is used of it later: taking one more term is a `max` with that term (`pre_succ`); a prefix of length `a + n` is the
  `max` of the prefix of length `a` and the prefix of length `n` of the shifted sequence (`pre_add`) — this is what lets a
  running maximum be computed tile by tile with the previous tile's last value carried over —; and a left fold of `max` over a
  list is the `max` of its start value and the supremum over the list's elements (`foldl_max_eq`).

  `cummax x` is the array whose entry `(b, t, h, c)` is the supremum of `x (b, s, h, c)` over `s ≤ t`.
-/
import Idealize.ShloMosaic.PureOps.Ideal
import Idealize.ShloMosaic.Lib.ValueIdx

noncomputable section

namespace Cert.RunningMax

open Idealize.ShloMosaic Idealize.ShloMosaic.ValueIdx

/-! ## Prefix suprema of a sequence -/

/-- The supremum of the first `n` terms. -/
def pre (f : ℕ → EReal) (n : ℕ) : EReal := (Finset.range n).sup f

theorem pre_zero (f : ℕ → EReal) : pre f 0 = ⊥ := by
  unfold pre; rw [Finset.range_zero, Finset.sup_empty]

/-- One more term: the `max` of what there was and the new term. -/
theorem pre_succ (f : ℕ → EReal) (n : ℕ) : pre f (n + 1) = max (pre f n) (f n) := by
  unfold pre; rw [Finset.range_add_one, Finset.sup_insert]; exact max_comm _ _

/-- A term among the first `n` is below their supremum. -/
theorem le_pre {f : ℕ → EReal} {s n : ℕ} (h : s < n) : f s ≤ pre f n :=
  Finset.le_sup (f := f) (Finset.mem_range.mpr h)

/-- A bound of the first `n` terms bounds their supremum. -/
theorem pre_le {f : ℕ → EReal} {n : ℕ} {u : EReal} (h : ∀ s, s < n → f s ≤ u) : pre f n ≤ u :=
  Finset.sup_le fun s hs => h s (Finset.mem_range.mp hs)

/-- A prefix in two stretches: the first `a` terms, then the first `n` terms of the sequence shifted by `a`. -/
theorem pre_add (f : ℕ → EReal) (a n : ℕ) :
    pre f (a + n) = max (pre f a) (pre (fun s => f (a + s)) n) := by
  induction n with
  | zero => rw [pre_zero, Nat.add_zero, max_eq_left bot_le]
  | succ n ih => rw [← Nat.add_assoc, pre_succ, ih, pre_succ, max_assoc]

/-- The prefix suprema only look at the terms they cover. -/
theorem pre_congr {f g : ℕ → EReal} {n : ℕ} (h : ∀ s, s < n → f s = g s) : pre f n = pre g n :=
  Finset.sup_congr rfl fun s hs => h s (Finset.mem_range.mp hs)

/-- A left fold of `max` over a list, from `v`: the `max` of `v` and the supremum over the list's elements. -/
theorem foldl_max_eq {ι : Type} [DecidableEq ι] (g : ι → EReal) (l : List ι) (v : EReal) :
    l.foldl (fun r n => max r (g n)) v = max v (l.toFinset.sup g) := by
  induction l generalizing v with
  | nil => rw [List.foldl_nil, List.toFinset_nil, Finset.sup_empty, max_eq_left bot_le]
  | cons a l ih => rw [List.foldl_cons, ih, List.toFinset_cons, Finset.sup_insert, max_assoc]

/-! ## The running maximum of an array along its second axis -/

/-- The entries of `x` along the second axis at fixed other coordinates, as a sequence (`⊥` past the axis' end). -/
def series (x : (⟨4, ![16, 512, 64, 128]⟩ : Shape).Idx → EReal) (b : Fin 16) (h : Fin 64) (c : Fin 128) (s : ℕ) : EReal :=
  if hs : s < 512 then x (ix4 b ⟨s, hs⟩ h c) else ⊥

/-- Entry `(b, t, h, c)` is the supremum of `x (b, s, h, c)` over `s ≤ t`. -/
def cummax (x : (⟨4, ![16, 512, 64, 128]⟩ : Shape).Idx → EReal) : (⟨4, ![16, 512, 64, 128]⟩ : Shape).Idx → EReal :=
  fun j => pre (series x (j 0) (j 2) (j 3)) ((j 1).val + 1)

end Cert.RunningMax

end
-- ==== Proof.Reference.lean ====
/-
  The reference at the extended reals: a cumulative maximum written as a window reduction.

  The reference reduces, with `max` from the initial value `-∞`, a window of 512 positions along the second axis of the array
  padded by 511 positions in front: at output index `(b, t, h, c)` window position `n` looks at `x (b, t + n - 511, h, c)`
  when `511 ≤ t + n` and at the padding, `-∞`, otherwise. A left fold of `max` from `⊥` is the supremum of the terms
  (`foldl_max_eq`), the padding contributes `⊥`, and the positions that are not padding are exactly the entries
  `s = t + n - 511 ≤ t`: the result is the supremum of `x (b, s, h, c)` over `s ≤ t`, the array's running maximum `cummax x`.
  The two inequalities use nothing of the window's row-major numbering beyond its being a bijection.
-/
import proofs.«139512_j70927089926350_2_alg».proof.Proof.Gen.ReferenceIdeal
import proofs.«139512_j70927089926350_2_alg».proof.Proof.RunningMax
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.ValueIdx Cert.RunningMax

/-- The initial value's word is `-∞`, the bottom of the extended reals. -/
theorem neg_inf : Ideal.ofBits .f32 0xFF800000#32 = (⊥ : EReal) := by simp [Ideal.ofBits, Ideal.ieee]

/-- The window's own shape: one position on every axis but the second, 512 on that. -/
abbrev Win : Shape := ⟨4, ![1, 512, 1, 1]⟩

/-- The window reduction is the running maximum along the second axis. -/
theorem reference_eq (x : S16x512x64x128.Idx → EReal) :
    Host.reduceWindow (FloatOps.maximumf (F := Ideal) (φ := .f32)) ![1, 512, 1, 1] ![1, 1, 1, 1] ![0, 511, 0, 0] ![0, 0, 0, 0] x
        (broadcastInDim S_ ![] bcast_S_S_ (constant (F := Ideal) S_ .f32 0xFF800000#32))
        reduceWindows_S16x512x64x128_S16x512x64x128_w1s1p0_0_w512s1p511_0_w1s1p0_0_w1s1p0_0 h_S_
      = cummax x := by
  funext j
  obtain ⟨b, t, h, c, rfl⟩ : ∃ (b : Fin 16) (t : Fin 512) (h : Fin 64) (c : Fin 128), j = ix4 b t h c :=
    ⟨j 0, j 1, j 2, j 3, eq_ix4 j⟩
  have hv : broadcastInDim S_ ![] bcast_S_S_ (constant (F := Ideal) S_ .f32 0xFF800000#32) (Shape.Idx.first h_S_) = (⊥ : EReal) :=
    neg_inf
  unfold Host.reduceWindow
  dsimp only
  rw [hv]
  simp only [Ideal.maximumf_def]
  refine (foldl_max_eq _ _ _).trans ?_
  rw [List.toFinset_finRange, max_eq_right bot_le]
  have ht := t.isLt
  apply le_antisymm
  · -- every window position is below the running maximum
    apply Finset.sup_le
    intro n _
    have q0 : (Win.rowMajor.symm n 0).val < 1 := (Win.rowMajor.symm n 0).isLt
    have q1 : (Win.rowMajor.symm n 1).val < 512 := (Win.rowMajor.symm n 1).isLt
    have q2 : (Win.rowMajor.symm n 2).val < 1 := (Win.rowMajor.symm n 2).isLt
    have q3 : (Win.rowMajor.symm n 3).val < 1 := (Win.rowMajor.symm n 3).isLt
    have hb := b.isLt
    have hh := h.isLt
    have hc := c.isLt
    split
    · rename_i hin
      have h1 : 511 ≤ t.val * 1 + (Win.rowMajor.symm n 1).val ∧ t.val * 1 + (Win.rowMajor.symm n 1).val - 511 < 512 := hin 1
      have hs : t.val + (Win.rowMajor.symm n 1).val - 511 < 512 := by omega
      refine le_trans (le_of_eq (congrArg x (?e : _ = ix4 b (⟨t.val + (Win.rowMajor.symm n 1).val - 511, hs⟩ : Fin 512) h c))) ?_
      · funext a
        apply Fin.ext
        match a with
        | ⟨0, _⟩ => show b.val * 1 + (Win.rowMajor.symm n 0).val - 0 = b.val; omega
        | ⟨1, _⟩ => show t.val * 1 + (Win.rowMajor.symm n 1).val - 511 = t.val + (Win.rowMajor.symm n 1).val - 511; omega
        | ⟨2, _⟩ => show h.val * 1 + (Win.rowMajor.symm n 2).val - 0 = h.val; omega
        | ⟨3, _⟩ => show c.val * 1 + (Win.rowMajor.symm n 3).val - 0 = c.val; omega
      · show _ ≤ pre (series x b h c) (t.val + 1)
        have e : series x b h c (t.val + (Win.rowMajor.symm n 1).val - 511)
            = x (ix4 b (⟨t.val + (Win.rowMajor.symm n 1).val - 511, hs⟩ : Fin 512) h c) := dif_pos hs
        rw [← e]
        exact le_pre (by omega)
    · exact bot_le
  · -- every entry up to `t` is looked at by some window position
    show pre (series x b h c) (t.val + 1) ≤ _
    apply pre_le
    intro s hs
    have hlt : 511 - t.val + s < 512 := by omega
    have hs' : s < 512 := by omega
    have hb := b.isLt
    have hh := h.isLt
    have hc := c.isLt
    obtain ⟨n, hn⟩ : ∃ n, Win.rowMajor.symm n
        = ix4 (0 : Fin 1) (⟨511 - t.val + s, hlt⟩ : Fin 512) (0 : Fin 1) (0 : Fin 1) :=
      ⟨Win.rowMajor _, Equiv.symm_apply_apply _ _⟩
    have k0 : (Win.rowMajor.symm n 0).val = 0 := congrArg (fun q : Win.Idx => (q 0).val) hn
    have k1 : (Win.rowMajor.symm n 1).val = 511 - t.val + s := congrArg (fun q : Win.Idx => (q 1).val) hn
    have k2 : (Win.rowMajor.symm n 2).val = 0 := congrArg (fun q : Win.Idx => (q 2).val) hn
    have k3 : (Win.rowMajor.symm n 3).val = 0 := congrArg (fun q : Win.Idx => (q 3).val) hn
    refine le_trans (le_of_eq ?_) (Finset.le_sup (Finset.mem_univ n))
    have e : series x b h c s = x (ix4 b (⟨s, hs'⟩ : Fin 512) h c) := dif_pos hs'
    rw [e]
    split
    · congr 1
      funext a
      apply Fin.ext
      match a with
      | ⟨0, _⟩ => show b.val = b.val * 1 + (Win.rowMajor.symm n 0).val - 0; omega
      | ⟨1, _⟩ => show s = t.val * 1 + (Win.rowMajor.symm n 1).val - 511; omega
      | ⟨2, _⟩ => show h.val = h.val * 1 + (Win.rowMajor.symm n 2).val - 0; omega
      | ⟨3, _⟩ => show c.val = c.val * 1 + (Win.rowMajor.symm n 3).val - 0; omega
    · rename_i hnot
      exfalso
      apply hnot
      intro a
      match a with
      | ⟨0, _⟩ => show 0 ≤ b.val * 1 + (Win.rowMajor.symm n 0).val ∧ b.val * 1 + (Win.rowMajor.symm n 0).val - 0 < 16; omega
      | ⟨1, _⟩ => show 511 ≤ t.val * 1 + (Win.rowMajor.symm n 1).val ∧ t.val * 1 + (Win.rowMajor.symm n 1).val - 511 < 512; omega
      | ⟨2, _⟩ => show 0 ≤ h.val * 1 + (Win.rowMajor.symm n 2).val ∧ h.val * 1 + (Win.rowMajor.symm n 2).val - 0 < 64; omega
      | ⟨3, _⟩ => show 0 ≤ c.val * 1 + (Win.rowMajor.symm n 3).val ∧ c.val * 1 + (Win.rowMajor.symm n 3).val - 0 < 128; omega

end Cert.ReferenceIdeal.RefValue

end
-- ==== Proof.Tile.lean ====
/-
  One tile of the kernel: 128 rows of the input, the running maximum carried down them.

  At a grid point the body holds a tile `x0` of 128 rows (each a 64 × 128 slab) and a carried slab. It loads the carried
  slab, and for `k = 0, …, 127` in turn takes the `max` of what it carries with row `k` of the tile and stores the result as
  row `k` of the output tile; after row 127 it stores what it carries back into the carried slab. That is a recurrence
  (`carryAt`, `piecesAt`), written here once over a symbolic row number, and the list of stores the body's run is
  recorded to have made is that recurrence at 128 rows — in both of the body's cases, which differ only in where the carried
  slab comes from: left by the previous grid point, or just reset to `-∞` (`run_B_out`, `run_B_scr`, `run_A_out`, `run_A_scr`).

  Read at the extended reals, entry `(h, c)` of what is carried after `n` rows is the `max` of the carried-in entry and the
  supremum of the first `n` entries of column `(h, c)` of the tile (`carry_apply`, by `pre_succ`). So every store is a row
  of ONE function of the output tile's index (`pieces_agree`), the output tile is that function (`out_B`, `out_A`), and the
  carried slab ends at the `max` of the carried-in entry and the supremum of the whole column (`scr_B`, `scr_A`). In the reset
  case the carried-in entry is `-∞ = ⊥` and drops out.
-/
import proofs.«139512_j70927089926350_2_alg».proof.Proof.Gen.KernelIdeal.Frame
import proofs.«139512_j70927089926350_2_alg».proof.Proof.RunningMax
import Idealize.ShloMosaic.Lib.Pipeline.Value
import Idealize.ShloMosaic.Lib.ValueIdx

set_option maxRecDepth 65536

noncomputable section

namespace Cert.KernelIdeal.Tile

open Cert.KernelIdeal Cert.KernelIdeal.Gen Idealize.ShloMosaic Idealize.ShloMosaic.TcCoe
open Idealize.ShloMosaic.Tactic Idealize.SL.Sem Idealize.ShloMosaic.ValueIdx Cert.RunningMax

variable {F : FTy → Type} [FloatOps F]

/-- Row `k` of a tile of 128 rows lies inside it. -/
theorem row_inb (k : ℕ) (hk : k < 128) :
    ∀ a, (![0, k, 0, 0] : Fin 4 → ℕ) a + S1x1x64x128.size a ≤ S1x128x64x128.size a := by
  intro a
  match a with
  | ⟨0, _⟩ => exact (by decide : 0 + 1 ≤ 1)
  | ⟨1, _⟩ => show k + 1 ≤ 128; omega
  | ⟨2, _⟩ => exact (by decide : 0 + 64 ≤ 64)
  | ⟨3, _⟩ => exact (by decide : 0 + 128 ≤ 128)

/-- Row `k` of the input tile, as the body loads it from the tile's staging buffer holding `x0`. -/
def row (arg2 : Memref sig .tc .vmem S1x128x64x128 .f32) (harg2 : arg2.IsWhole) (x0 : Vec F S1x128x64x128 .f32)
    (k : ℕ) (hk : k < 128) : Vec F S1x1x64x128 .f32 :=
  View.readAt (Elt F) arg2.view (Rect.unit (s := S1x128x64x128) ![0, k, 0, 0] S1x1x64x128.size (row_inb k hk)).toLoadRect
    (harg2.unread x0)

/-- The running maximum the body carries: the scratch's row as loaded (`v3`), then `max` with one input row at a time. -/
def carryAt (arg2 : Memref sig .tc .vmem S1x128x64x128 .f32) (harg2 : arg2.IsWhole) (x0 : Vec F S1x128x64x128 .f32)
    (v3 : Vec F S1x1x64x128 .f32) : (n : ℕ) → n ≤ 128 → FVec F S1x64x128 .f32
  | 0, _ => shapeCast S1x64x128 v3 shapeCasts_S1x1x64x128_S1x64x128
  | n + 1, h => maximumf (carryAt arg2 harg2 x0 v3 n (Nat.le_of_succ_le h))
      (shapeCast S1x64x128 (row arg2 harg2 x0 n h) shapeCasts_S1x1x64x128_S1x64x128)

/-- The body's stores into the output tile after `n` rows, newest first: row `k` receives the running maximum after row `k`. -/
def piecesAt (arg2 : Memref sig .tc .vmem S1x128x64x128 .f32) (harg2 : arg2.IsWhole) (x0 : Vec F S1x128x64x128 .f32)
    (v3 : Vec F S1x1x64x128 .f32) : (n : ℕ) → n ≤ 128 → List (View.Piece (Elt F) S1x128x64x128 .f32)
  | 0, _ => []
  | n + 1, h => ⟨Rect.unit (s := S1x128x64x128) ![0, n, 0, 0] S1x1x64x128.size (row_inb n h),
      shapeCast S1x1x64x128 (carryAt arg2 harg2 x0 v3 (n + 1) h) shapeCasts_S1x64x128_S1x1x64x128⟩
        :: piecesAt arg2 harg2 x0 v3 n (Nat.le_of_succ_le h)

/-! ## The body's run made exactly these stores -/

section Runs

variable (c : Dev nD) (i : grid0.Coords) (arg2 : Memref sig .tc .vmem S1x128x64x128 .f32) (harg2 : arg2.IsWhole)
  (arg3 : Memref sig .tc .vmem S1x128x64x128 .f32) (harg3 : arg3.IsWhole)
  (arg4 : Memref sig .tc .vmem S1x1x64x128 .f32) (harg4 : arg4.IsWhole)

/-- The carried slab as the body loads it when the previous point left `xs0` in it. -/
abbrev loadedB (xs0 : Vec F S1x1x64x128 .f32) : Vec F S1x1x64x128 .f32 :=
  View.readAt (Elt F) arg4.view (Rect.unit (s := S1x1x64x128) ![0, 0, 0, 0] S1x1x64x128.size inb_S1x1x64x128_S1x1x64x128_0_0_0_0).toLoadRect
    (harg4.unread xs0)

theorem run_B_out (hc0 : ¬cond0_0 i) (x0 : Vec F S1x128x64x128 .f32) (xs0 : Vec F S1x1x64x128 .f32) :
    (kernelRun0_B c i arg2 harg2 arg3 harg3 arg4 harg4 hc0 x0 xs0).1
      = piecesAt arg2 harg2 x0 (loadedB arg4 harg4 xs0) 128 (Nat.le_refl _) := by
  unfold kernelRun0_B
  dsimp only
  rfl

theorem run_B_scr (hc0 : ¬cond0_0 i) (x0 : Vec F S1x128x64x128 .f32) (xs0 : Vec F S1x1x64x128 .f32) :
    (kernelRun0_B c i arg2 harg2 arg3 harg3 arg4 harg4 hc0 x0 xs0).2.1
      = [⟨Rect.unit (s := S1x1x64x128) ![0, 0, 0, 0] S1x1x64x128.size inb_S1x1x64x128_S1x1x64x128_0_0_0_0,
          shapeCast S1x1x64x128 (carryAt arg2 harg2 x0 (loadedB arg4 harg4 xs0) 128 (Nat.le_refl _)) shapeCasts_S1x64x128_S1x1x64x128⟩] := by
  unfold kernelRun0_B
  dsimp only
  rfl

theorem run_A_out (hc0 : cond0_0 i) (x0 : Vec F S1x128x64x128 .f32) :
    (kernelRun0_A c i arg2 harg2 arg3 harg3 arg4 harg4 hc0 x0).1
      = piecesAt arg2 harg2 x0 (kernelRun0_A.sl.v3 c arg4) 128 (Nat.le_refl _) := by
  unfold kernelRun0_A
  dsimp only
  rfl

theorem run_A_scr (hc0 : cond0_0 i) (x0 : Vec F S1x128x64x128 .f32) :
    (kernelRun0_A c i arg2 harg2 arg3 harg3 arg4 harg4 hc0 x0).2.1
      = ⟨Rect.unit (s := S1x1x64x128) ![0, 0, 0, 0] S1x1x64x128.size inb_S1x1x64x128_S1x1x64x128_0_0_0_0,
          shapeCast S1x1x64x128 (carryAt arg2 harg2 x0 (kernelRun0_A.sl.v3 c arg4) 128 (Nat.le_refl _)) shapeCasts_S1x64x128_S1x1x64x128⟩
        :: kernelRun0_A.sl.HS0_1 := by
  unfold kernelRun0_A
  dsimp only
  rfl

end Runs

/-! ## The recurrence read at the extended reals -/

section Values

variable (arg2 : Memref sig .tc .vmem S1x128x64x128 .f32) (harg2 : arg2.IsWhole)
  (x0 : Vec Ideal S1x128x64x128 .f32) (v3 : Vec Ideal S1x1x64x128 .f32)

/-- Column `(h, c)` of the tile, row by row, as a sequence (`⊥` past the tile's last row). -/
def col (x0 : Vec Ideal S1x128x64x128 .f32) (h : Fin 64) (c : Fin 128) (s : ℕ) : EReal :=
  if hs : s < 128 then (x0 (ix4 (0 : Fin 1) (⟨s, hs⟩ : Fin 128) h c) : EReal) else ⊥

theorem hz4 : (![0, 0, 0, 0] : Fin 4 → ℕ) = fun _ => 0 := funext fun a => by fin_cases a <;> rfl

/-- The loaded row `k` is row `k` of the tile. -/
theorem row_apply (k : ℕ) (hk : k < 128) (a b : Fin 1) (h : Fin 64) (c : Fin 128) :
    (row arg2 harg2 x0 k hk (ix4 a b h c) : EReal) = x0 (ix4 (0 : Fin 1) (⟨k, hk⟩ : Fin 128) h c) := by
  unfold row
  rw [View.readAt_apply, harg2.read_unread]
  congr 1
  funext e
  apply Fin.ext
  have ha := a.isLt
  have hb := b.isLt
  match e with
  | ⟨0, _⟩ => show 0 + 1 * a.val = 0; omega
  | ⟨1, _⟩ => show k + 1 * b.val = k; omega
  | ⟨2, _⟩ => show 0 + 1 * h.val = h.val; omega
  | ⟨3, _⟩ => show 0 + 1 * c.val = c.val; omega

/-- What is carried after `n` rows, at `(h, c)`: the carried-in entry, `max` the supremum of the column's first `n` entries. -/
theorem carry_apply (n : ℕ) (hn : n ≤ 128) (a : Fin 1) (h : Fin 64) (c : Fin 128) :
    (carryAt arg2 harg2 x0 v3 n hn (ix3 a h c) : EReal)
      = max (carryAt arg2 harg2 x0 v3 0 (Nat.zero_le _) (ix3 a h c) : EReal) (pre (col x0 h c) n) := by
  induction n with
  | zero => rw [pre_zero]; exact (max_eq_left bot_le).symm
  | succ n ih =>
    have hk : n < 128 := hn
    show max (carryAt arg2 harg2 x0 v3 n (Nat.le_of_succ_le hn) (ix3 a h c) : EReal)
        (shapeCast S1x64x128 (row arg2 harg2 x0 n hn) shapeCasts_S1x1x64x128_S1x64x128 (ix3 a h c)) = _
    rw [ih (Nat.le_of_succ_le hn), shapeCast_dropUnit_apply ![1, 64, 128]]
    have hrow : ∀ j : S1x1x64x128.Idx, j = ix4 (0 : Fin 1) a h c →
        (row arg2 harg2 x0 n hn j : EReal) = col x0 h c n := by
      intro j hj
      subst hj
      rw [row_apply]
      unfold col
      rw [dif_pos hk]
    rw [hrow _ (funext fun d => by
      match d with
      | ⟨0, _⟩ => rfl
      | ⟨1, _⟩ => rfl
      | ⟨2, _⟩ => rfl
      | ⟨3, _⟩ => rfl), pre_succ, max_assoc]

/-- The stored row after row `n`, at `(h, c)`. -/
theorem piece_apply (n : ℕ) (hn : n + 1 ≤ 128) (a b : Fin 1) (h : Fin 64) (c : Fin 128) :
    (shapeCast S1x1x64x128 (carryAt arg2 harg2 x0 v3 (n + 1) hn) shapeCasts_S1x64x128_S1x1x64x128 (ix4 a b h c) : EReal)
      = max (carryAt arg2 harg2 x0 v3 0 (Nat.zero_le _) (ix3 b h c) : EReal) (pre (col x0 h c) (n + 1)) := by
  rw [shapeCast_addUnit_apply ![1, 64, 128]]
  have hc : ∀ j : S1x64x128.Idx, j = ix3 b h c →
      (carryAt arg2 harg2 x0 v3 (n + 1) hn j : EReal)
        = max (carryAt arg2 harg2 x0 v3 0 (Nat.zero_le _) (ix3 b h c) : EReal) (pre (col x0 h c) (n + 1)) := by
    intro j hj
    subst hj
    exact carry_apply arg2 harg2 x0 v3 (n + 1) hn b h c
  exact hc _ (funext fun d => by
    match d with
    | ⟨0, _⟩ => rfl
    | ⟨1, _⟩ => rfl
    | ⟨2, _⟩ => rfl)

/-- The output tile as ONE function of its index: at `(·, r, h, c)`, the carried-in entry `max` the supremum of the column's
    entries up to row `r`. -/
def tileG (c0 : FVec Ideal S1x64x128 .f32) (x0 : Vec Ideal S1x128x64x128 .f32) (r : Fin 128) (h : Fin 64) (c : Fin 128) : EReal :=
  max (c0 (ix3 (0 : Fin 1) h c) : EReal) (pre (col x0 h c) (r.val + 1))

/-- Every store of the recurrence is a row of that function. -/
theorem pieces_agree (n : ℕ) (hn : n ≤ 128) :
    ∀ p ∈ piecesAt arg2 harg2 x0 v3 n hn, ∀ x : p.1.shape.Idx,
      p.2 x = (fun y : S1x128x64x128.Idx => tileG (carryAt arg2 harg2 x0 v3 0 (Nat.zero_le _)) x0 (y 1) (y 2) (y 3)) (p.1.emb x) := by
  induction n with
  | zero => intro p hp; exact absurd hp List.not_mem_nil
  | succ n ih =>
    intro p hp x
    simp only [piecesAt, List.mem_cons] at hp
    rcases hp with rfl | hp'
    · obtain ⟨a, b, h, c, rfl⟩ : ∃ (a b : Fin 1) (h : Fin 64) (c : Fin 128), x = ix4 a b h c :=
        ⟨x 0, x 1, x 2, x 3, eq_ix4 x⟩
      have he : (Rect.unit (s := S1x128x64x128) ![0, n, 0, 0] S1x1x64x128.size (row_inb n hn)).emb (ix4 a b h c)
          = ix4 (0 : Fin 1) (⟨n, hn⟩ : Fin 128) h c := by
        funext e
        apply Fin.ext
        have ha := a.isLt
        have hb := b.isLt
        match e with
        | ⟨0, _⟩ => show 0 + 1 * a.val = 0; omega
        | ⟨1, _⟩ => show n + 1 * b.val = n; omega
        | ⟨2, _⟩ => show 0 + 1 * h.val = h.val; omega
        | ⟨3, _⟩ => show 0 + 1 * c.val = c.val; omega
      show (shapeCast S1x1x64x128 (carryAt arg2 harg2 x0 v3 (n + 1) hn) shapeCasts_S1x64x128_S1x1x64x128 (ix4 a b h c) : EReal)
        = (fun y : S1x128x64x128.Idx => tileG (carryAt arg2 harg2 x0 v3 0 (Nat.zero_le _)) x0 (y 1) (y 2) (y 3))
            ((Rect.unit (s := S1x128x64x128) ![0, n, 0, 0] S1x1x64x128.size (row_inb n hn)).emb (ix4 a b h c))
      rw [he, piece_apply, Subsingleton.elim b (0 : Fin 1)]
      rfl
    · exact ih (Nat.le_of_succ_le hn) p hp' x

end Values

/-! ## The two cases of the body -/

section Cases

variable (c : Dev nD) (i : grid0.Coords) (arg2 : Memref sig .tc .vmem S1x128x64x128 .f32) (harg2 : arg2.IsWhole)
  (arg3 : Memref sig .tc .vmem S1x128x64x128 .f32) (harg3 : arg3.IsWhole)
  (arg4 : Memref sig .tc .vmem S1x1x64x128 .f32) (harg4 : arg4.IsWhole)

/-- Loading the whole carried slab reads what the previous point left in it. -/
theorem loadedB_eq (xs0 : Vec F S1x1x64x128 .f32) : loadedB arg4 harg4 xs0 = xs0 := by
  show View.readAt (Elt F) arg4.view (Rect.unit (s := S1x1x64x128) ![0, 0, 0, 0] S1x1x64x128.size inb_S1x1x64x128_S1x1x64x128_0_0_0_0).toLoadRect
    (harg4.unread xs0) = xs0
  rw [View.readAt_eq_ld, harg4.read_unread]
  exact View.ld_unit_zero hz4 _ xs0

/-- After the reset, loading the carried slab reads the reset's value. -/
theorem loadedA_eq : kernelRun0_A.sl.v3 (F := F) c arg4 = k0_pay2 := by
  unfold kernelRun0_A.sl.v3 kernelRun0_A.sl.HS0_1
  exact View.readCov_unit_zero _ hz4 _ _

/-- The reset's word is `-∞`, the bottom of the extended reals. -/
theorem neg_inf : Ideal.ofBits .f32 0xFF800000#32 = (⊥ : EReal) := by simp [Ideal.ofBits, Ideal.ieee]

/-- The carried-in entry when the previous point left `xs0`. -/
theorem carry0_B (x0 : Vec Ideal S1x128x64x128 .f32) (xs0 : Vec Ideal S1x1x64x128 .f32) (a : Fin 1) (h : Fin 64) (cc : Fin 128) :
    (carryAt arg2 harg2 x0 (loadedB arg4 harg4 xs0) 0 (Nat.zero_le _) (ix3 a h cc) : EReal) = xs0 (ix4 (0 : Fin 1) a h cc) := by
  show (shapeCast S1x64x128 (loadedB arg4 harg4 xs0) shapeCasts_S1x1x64x128_S1x64x128 (ix3 a h cc) : EReal) = _
  rw [loadedB_eq, shapeCast_dropUnit_apply ![1, 64, 128]]
  congr 1
  funext d
  match d with
  | ⟨0, _⟩ => rfl
  | ⟨1, _⟩ => rfl
  | ⟨2, _⟩ => rfl
  | ⟨3, _⟩ => rfl

/-- The carried-in entry after the reset: `⊥`. -/
theorem carry0_A (x0 : Vec Ideal S1x128x64x128 .f32) (a : Fin 1) (h : Fin 64) (cc : Fin 128) :
    (carryAt arg2 harg2 x0 (kernelRun0_A.sl.v3 (F := Ideal) c arg4) 0 (Nat.zero_le _) (ix3 a h cc) : EReal) = ⊥ := by
  show (shapeCast S1x64x128 (kernelRun0_A.sl.v3 (F := Ideal) c arg4) shapeCasts_S1x1x64x128_S1x64x128 (ix3 a h cc) : EReal) = _
  rw [loadedA_eq, shapeCast_dropUnit_apply ![1, 64, 128]]
  unfold k0_pay2
  rw [shapeCast_self]
  exact neg_inf

/-- THE OUTPUT TILE when the previous point left `xs0` in the carried slab: at `(·, r, h, c)`, `xs0 (h, c)` `max` the supremum
    of the tile's column `(h, c)` up to row `r`. -/
theorem out_B (hc0 : ¬cond0_0 i) (x0 : Vec Ideal S1x128x64x128 .f32) (xs0 : Vec Ideal S1x1x64x128 .f32)
    (a : Fin 1) (r : Fin 128) (h : Fin 64) (cc : Fin 128) :
    (out0_B_1 c i arg2 harg2 arg3 harg3 arg4 harg4 hc0 x0 xs0 (ix4 a r h cc) : EReal)
      = max (xs0 (ix4 (0 : Fin 1) (0 : Fin 1) h cc) : EReal) (pre (col x0 h cc) (r.val + 1)) := by
  have hcov := cover0_B_1 c i arg2 harg2 arg3 harg3 arg4 harg4 hc0 x0 xs0
  unfold out0_B_1
  rw [View.read_writes_apply_eq_canon _ _ _ _ (hcov _)]
  rw [run_B_out] at hcov ⊢
  rw [View.canon_apply_of_pieces
    (fun y : S1x128x64x128.Idx => tileG (carryAt arg2 harg2 x0 (loadedB arg4 harg4 xs0) 0 (Nat.zero_le _)) x0 (y 1) (y 2) (y 3)) _
    (pieces_agree arg2 harg2 x0 (loadedB arg4 harg4 xs0) 128 (Nat.le_refl _)) _ (hcov _)]
  show tileG _ x0 r h cc = _
  unfold tileG
  rw [carry0_B]

/-- THE CARRIED SLAB after such a point: `xs0 (h, c)` `max` the supremum of the tile's whole column. -/
theorem scr_B (hc0 : ¬cond0_0 i) (x0 : Vec Ideal S1x128x64x128 .f32) (xs0 : Vec Ideal S1x1x64x128 .f32)
    (a b : Fin 1) (h : Fin 64) (cc : Fin 128) :
    (sout0_B_0 c i arg2 harg2 arg3 harg3 arg4 harg4 hc0 x0 xs0 (ix4 a b h cc) : EReal)
      = max (xs0 (ix4 (0 : Fin 1) (0 : Fin 1) h cc) : EReal) (pre (col x0 h cc) 128) := by
  unfold sout0_B_0
  rw [View.read_writes_eq_canon _ _ _ (scover0_B_0 c i arg2 harg2 arg3 harg3 arg4 harg4 hc0 x0 xs0), run_B_scr,
    View.canon_unit_zero hz4]
  refine (piece_apply arg2 harg2 x0 _ 127 (Nat.le_refl 128) a b h cc).trans ?_
  rw [carry0_B, Subsingleton.elim b (0 : Fin 1)]

/-- THE OUTPUT TILE at a point that resets the carried slab: the supremum of the tile's column up to row `r`. -/
theorem out_A (hc0 : cond0_0 i) (x0 : Vec Ideal S1x128x64x128 .f32) (a : Fin 1) (r : Fin 128) (h : Fin 64) (cc : Fin 128) :
    (out0_A_1 c i arg2 harg2 arg3 harg3 arg4 harg4 hc0 x0 (ix4 a r h cc) : EReal) = pre (col x0 h cc) (r.val + 1) := by
  have hcov := cover0_A_1 c i arg2 harg2 arg3 harg3 arg4 harg4 hc0 x0
  unfold out0_A_1
  rw [View.read_writes_apply_eq_canon _ _ _ _ (hcov _)]
  rw [run_A_out] at hcov ⊢
  rw [View.canon_apply_of_pieces
    (fun y : S1x128x64x128.Idx => tileG (carryAt arg2 harg2 x0 (kernelRun0_A.sl.v3 (F := Ideal) c arg4) 0 (Nat.zero_le _)) x0 (y 1) (y 2) (y 3)) _
    (pieces_agree arg2 harg2 x0 (kernelRun0_A.sl.v3 (F := Ideal) c arg4) 128 (Nat.le_refl _)) _ (hcov _)]
  show tileG _ x0 r h cc = _
  unfold tileG
  rw [carry0_A]
  exact max_eq_right bot_le

/-- THE CARRIED SLAB after such a point: the supremum of the tile's whole column. -/
theorem scr_A (hc0 : cond0_0 i) (x0 : Vec Ideal S1x128x64x128 .f32) (a b : Fin 1) (h : Fin 64) (cc : Fin 128) :
    (sout0_A_0 c i arg2 harg2 arg3 harg3 arg4 harg4 hc0 x0 (ix4 a b h cc) : EReal) = pre (col x0 h cc) 128 := by
  unfold sout0_A_0
  rw [View.read_writes_eq_canon _ _ _ (scover0_A_0 c i arg2 harg2 arg3 harg3 arg4 harg4 hc0 x0), run_A_scr,
    View.canon_cons_unit_zero hz4]
  refine (piece_apply arg2 harg2 x0 _ 127 (Nat.le_refl 128) a b h cc).trans ?_
  rw [carry0_A]
  exact max_eq_right bot_le

end Cases

end Cert.KernelIdeal.Tile

end
-- ==== Proof.Whole.lean ====
/-
  From the tiles to the whole array: the kernel's result is the running maximum along the second axis.

  The grid has 64 points; point `t` works on rows `128·(t mod 4) … 128·(t mod 4) + 127` of batch entry `t / 4`, and the points of
  one batch entry come one after the other, the carried slab reset at the first of them (`t mod 4 = 0`). Write `f` for the
  entries `x (b, ·, h, c)` along the second axis. By induction over the points (`outs_inv`): after point `t` the output tile
  holds at `(·, r, h, c)` the supremum of the first `128·(t mod 4) + r + 1` terms of `f`, and the carried slab the supremum of
  the first `128·(t mod 4 + 1)`. A point that resets starts from `⊥`; any other starts from what the point before left, which is
  the supremum of the first `128·(t mod 4)` terms, and the tile adds the supremum of the next `r + 1` — a prefix in two
  stretches (`pre_add`). So what each point writes back is its block of `cummax x` (`flushed_eq`), the blocks cover the array
  (`cover`), and the array after the run is `cummax x` (`final`, `run`).
-/
import proofs.«139512_j70927089926350_2_alg».proof.Proof.Gen.KernelIdeal.Value
import proofs.«139512_j70927089926350_2_alg».proof.Proof.Tile
import proofs.«139512_j70927089926350_2_alg».proof.Proof.RunningMax
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tile Idealize.ShloMosaic Idealize.ShloMosaic.TcCoe
open Idealize.SL.Sem Idealize.ShloMosaic.ValueIdx Cert.RunningMax
open Idealize.ShloMosaic.Pipeline (Dat)

variable (m : (ℓ : Loc nD τ sig) → Buf (Elt Ideal) ℓ) (ρ : Dev nD → PrngReg)

/-- A tile's prefix joins the prefix before it: if `g` is `f` shifted by `128·q` on the tile's rows, the supremum of the first
    `128·q` terms of `f`, `max` the supremum of the first `k` terms of `g`, is the supremum of the first `128·q + k` terms of `f`. -/
theorem tile_pre (f g : ℕ → EReal) (q k : ℕ) (hk : k ≤ 128) (hg : ∀ s, s < 128 → g s = f (128 * q + s)) :
    max (pre f (128 * q)) (pre g k) = pre f (128 * q + k) := by
  rw [pre_add]
  congr 1
  exact pre_congr fun s hs => hg s (by omega)

/-- The printed index maps, decided over the grid: point `t` stages block `(t / 4, t mod 4, 0, 0)` of the input and of the output. -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0 :=
  (by decide +kernel : ∀ t : Fin grid0.N, _)

theorem N64 : cfg0.N = 64 := N_0

/-- The input tile of point `t`, entry by entry. -/
theorem iblk_apply (c : Dev nD) (t : Fin cfg0.N) (b : Fin 16) (hb : b.val = t.val / 4)
    (a : Fin 1) (s : Fin 128) (h : Fin 64) (cc : Fin 128) (hs : 128 * (t.val % 4) + s.val < 512) :
    (iblk m c 0 t (ix4 a s h cc) : EReal)
      = V m c main_arg0 (ix4 b (⟨128 * (t.val % 4) + s.val, hs⟩ : Fin 512) h cc) := by
  obtain ⟨e0, e1, e2, e3, -⟩ := idx_facts t
  have ha := a.isLt
  show V m c main_arg0 (((cfg0.win 0).blk t).view.emb (ix4 a s h cc)) = _
  congr 1
  funext d
  apply Fin.ext
  match d with
  | ⟨0, _⟩ => show win0_0.index t (0 : Fin 4) * 1 + 1 * a.val = b.val; omega
  | ⟨1, _⟩ => show win0_0.index t (1 : Fin 4) * 128 + 1 * s.val = 128 * (t.val % 4) + s.val; omega
  | ⟨2, _⟩ => show win0_0.index t (2 : Fin 4) * 64 + 1 * h.val = h.val; omega
  | ⟨3, _⟩ => show win0_0.index t (3 : Fin 4) * 128 + 1 * cc.val = cc.val; omega

/-- Column `(h, c)` of point `t`'s input tile is the array's entries along the second axis, shifted by `128·(t mod 4)`. -/
theorem col_iblk (c : Dev nD) (t : Fin cfg0.N) (b : Fin 16) (hb : b.val = t.val / 4) (h : Fin 64) (cc : Fin 128)
    (s : ℕ) (hs : s < 128) :
    col (iblk m c 0 t) h cc s = series (V m c main_arg0) b h cc (128 * (t.val % 4) + s) := by
  have hlt : 128 * (t.val % 4) + s < 512 := by omega
  unfold col series
  rw [dif_pos hs, dif_pos hlt]
  exact iblk_apply m c t b hb 0 ⟨s, hs⟩ h cc hlt

/-- AFTER POINT `n`: the output tile holds the running maximum of its rows, and the carried slab the maximum of everything up
    to the tile's last row. -/
theorem outs_inv (c : Dev nD) : ∀ (n : ℕ) (hn : n < cfg0.N) (b : Fin 16), b.val = n / 4 →
    (∀ (a : Fin 1) (r : Fin 128) (h : Fin 64) (cc : Fin 128),
      ((outsAt0 m c n hn).1 (ix4 a r h cc) : EReal)
        = pre (series (V m c main_arg0) b h cc) (128 * (n % 4) + (r.val + 1)))
    ∧ (∀ (a a' : Fin 1) (h : Fin 64) (cc : Fin 128),
      ((outsAt0 m c n hn).2 (ix4 a a' h cc) : EReal)
        = pre (series (V m c main_arg0) b h cc) (128 * (n % 4) + 128)) := by
  intro n
  induction n using Nat.strong_induction_on with
  | _ n ih =>
    intro hn b hb
    have hN : n < 64 := lt_of_lt_of_eq hn N64
    by_cases h0 : n % 4 = 0
    · -- a point that resets the carried slab: nothing comes before its tile
      have hA := outsAt0_A m c ⟨n, hn⟩ h0
      have hcol := fun (h : Fin 64) (cc : Fin 128) (s : ℕ) (hs : s < 128) => col_iblk m c ⟨n, hn⟩ b hb h cc s hs
      constructor
      · intro a r h cc
        have hr := r.isLt
        rw [show outsAt0 m c n hn = _ from hA]
        dsimp only
        rw [out_A, ← tile_pre (series (V m c main_arg0) b h cc) (col (iblk m c 0 ⟨n, hn⟩) h cc) (n % 4) (r.val + 1) (by omega) (hcol h cc),
          h0, Nat.mul_zero, pre_zero, max_eq_right bot_le]
      · intro a a' h cc
        rw [show outsAt0 m c n hn = _ from hA]
        dsimp only
        rw [scr_A, ← tile_pre (series (V m c main_arg0) b h cc) (col (iblk m c 0 ⟨n, hn⟩) h cc) (n % 4) 128 (Nat.le_refl _) (hcol h cc),
          h0, Nat.mul_zero, pre_zero, max_eq_right bot_le]
    · -- any other point: the carried slab holds what the point before left
      have hB := outsAt0_B m c ⟨n, hn⟩ h0
      have hcol := fun (h : Fin 64) (cc : Fin 128) (s : ℕ) (hs : s < 128) => col_iblk m c ⟨n, hn⟩ b hb h cc s hs
      have hprev := (ih (n - 1) (by omega) (Nat.lt_of_le_of_lt (Nat.sub_le _ _) hn) b (by omega)).2
      have hq : 128 * ((n - 1) % 4) + 128 = 128 * (n % 4) := by omega
      constructor
      · intro a r h cc
        have hr := r.isLt
        rw [show outsAt0 m c n hn = _ from hB]
        dsimp only
        rw [out_B, hprev, hq]
        exact tile_pre _ _ (n % 4) (r.val + 1) (by omega) (hcol h cc)
      · intro a a' h cc
        rw [show outsAt0 m c n hn = _ from hB]
        dsimp only
        rw [scr_B, hprev, hq]
        exact tile_pre _ _ (n % 4) 128 (Nat.le_refl _) (hcol h cc)

/-- WHAT POINT `t` WRITES BACK is its block of the running maximum of the input array. -/
theorem flushed_eq (c : Dev nD) (t : Fin cfg0.N) :
    (dats m 0 c).flushed 1 t = ((cfg0.win 1).blk t).view.read (Elt Ideal) (cummax (V m c main_arg0)) := by
  rw [Value.flushed1]
  have hN : t.val < 64 := lt_of_lt_of_eq t.isLt N64
  obtain ⟨-, -, -, -, e0, e1, e2, e3⟩ := idx_facts t
  funext j
  obtain ⟨a, r, h, cc, rfl⟩ : ∃ (a : Fin 1) (r : Fin 128) (h : Fin 64) (cc : Fin 128), j = ix4 a r h cc :=
    ⟨j 0, j 1, j 2, j 3, eq_ix4 j⟩
  have ha := a.isLt
  have hr := r.isLt
  have hb : t.val / 4 < 16 := by omega
  have hs : 128 * (t.val % 4) + r.val < 512 := by omega
  show ((outsAt0 m c t.val t.isLt).1 (ix4 a r h cc) : EReal)
    = cummax (V m c main_arg0) (((cfg0.win 1).blk t).view.emb (ix4 a r h cc))
  rw [(outs_inv m c t.val t.isLt ⟨t.val / 4, hb⟩ rfl).1 a r h cc]
  have he : ((cfg0.win 1).blk t).view.emb (ix4 a r h cc)
      = ix4 (⟨t.val / 4, hb⟩ : Fin 16) (⟨128 * (t.val % 4) + r.val, hs⟩ : Fin 512) h cc := by
    funext d
    apply Fin.ext
    match d with
    | ⟨0, _⟩ => show win0_1.index t (0 : Fin 4) * 1 + 1 * a.val = t.val / 4; omega
    | ⟨1, _⟩ => show win0_1.index t (1 : Fin 4) * 128 + 1 * r.val = 128 * (t.val % 4) + r.val; omega
    | ⟨2, _⟩ => show win0_1.index t (2 : Fin 4) * 64 + 1 * h.val = h.val; omega
    | ⟨3, _⟩ => show win0_1.index t (3 : Fin 4) * 128 + 1 * cc.val = cc.val; omega
  rw [he]
  show _ = pre (series (V m c main_arg0) (⟨t.val / 4, hb⟩ : Fin 16) h cc) (128 * (t.val % 4) + r.val + 1)
  rw [Nat.add_assoc]

/-- An index of the array is in point `t`'s block iff each coordinate is in the block's range on its axis. -/
theorem mem_blk (t : Fin cfg0.N) (i : S16x512x64x128.Idx) :
    i ∈ ((cfg0.win 1).blk t).view.set ↔ ∀ a : Fin 4, win0_1.index t a * S1x128x64x128.size a ≤ (i a).val
      ∧ (i a).val < win0_1.index t a * S1x128x64x128.size a + S1x128x64x128.size a := by
  show i ∈ ((View.whole main_v0).slice (win0_1.rect t)).set ↔ _
  rw [View.set_slice_whole, Rect.mem_set_unit]
  exact Iff.rfl

/-- The blocks cover the array: index `(b, t, h, c)` is in the block of point `4·b + t / 128`. -/
theorem cover (i : S16x512x64x128.Idx) :
    ∃ t : Fin cfg0.N, (cfg0.win 1).flush t = true ∧ i ∈ ((cfg0.win 1).blk t).view.set := by
  have h0 : (i 0).val < 16 := (i 0).isLt
  have h1 : (i 1).val < 512 := (i 1).isLt
  have h2 : (i 2).val < 64 := (i 2).isLt
  have h3 : (i 3).val < 128 := (i 3).isLt
  have hlt : 4 * (i 0).val + (i 1).val / 128 < cfg0.N := by rw [N64]; omega
  refine ⟨⟨4 * (i 0).val + (i 1).val / 128, hlt⟩, flush0_1 _, ?_⟩
  rw [mem_blk]
  obtain ⟨-, -, -, -, e0, e1, e2, e3⟩ := idx_facts ⟨4 * (i 0).val + (i 1).val / 128, hlt⟩
  have e0' : win0_1.index ⟨4 * (i 0).val + (i 1).val / 128, hlt⟩ (0 : Fin 4) = (4 * (i 0).val + (i 1).val / 128) / 4 := e0
  have e1' : win0_1.index ⟨4 * (i 0).val + (i 1).val / 128, hlt⟩ (1 : Fin 4) = (4 * (i 0).val + (i 1).val / 128) % 4 := e1
  intro a
  match a with
  | ⟨0, _⟩ =>
    show win0_1.index ⟨4 * (i 0).val + (i 1).val / 128, hlt⟩ (0 : Fin 4) * 1 ≤ (i 0).val
      ∧ (i 0).val < win0_1.index ⟨4 * (i 0).val + (i 1).val / 128, hlt⟩ (0 : Fin 4) * 1 + 1
    omega
  | ⟨1, _⟩ =>
    show win0_1.index ⟨4 * (i 0).val + (i 1).val / 128, hlt⟩ (1 : Fin 4) * 128 ≤ (i 1).val
      ∧ (i 1).val < win0_1.index ⟨4 * (i 0).val + (i 1).val / 128, hlt⟩ (1 : Fin 4) * 128 + 128
    omega
  | ⟨2, _⟩ =>
    show win0_1.index ⟨4 * (i 0).val + (i 1).val / 128, hlt⟩ (2 : Fin 4) * 64 ≤ (i 2).val
      ∧ (i 2).val < win0_1.index ⟨4 * (i 0).val + (i 1).val / 128, hlt⟩ (2 : Fin 4) * 64 + 64
    omega
  | ⟨3, _⟩ =>
    show win0_1.index ⟨4 * (i 0).val + (i 1).val / 128, hlt⟩ (3 : Fin 4) * 128 ≤ (i 3).val
      ∧ (i 3).val < win0_1.index ⟨4 * (i 0).val + (i 1).val / 128, hlt⟩ (3 : Fin 4) * 128 + 128
    omega

/-- THE OUTPUT ARRAY after the run: the running maximum of the input array along its second axis. -/
theorem final (c : Dev nD) : (dats m 0 c).arrAt 1 cfg0.N = cummax (V m c main_arg0) :=
  (dats m 0 c).arrAt_eq_of_cover 1 (cummax (V m c main_arg0)) (fun t _ => flushed_eq m c t) cover

/-- The kernel's run: every weakly fair execution ends with the result array at the running maximum of the argument array,
    the argument unchanged. -/
theorem run : θ_run defs (onTc (τ := τ) (main (F := Ideal))) ⟨m, fun _ => 0, ρ⟩ fun r => ∀ c : Dev nD,
      r.2.mem ((c : Thread nD τ).loc main_v0) = cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  The kernel computes a cumulative maximum along the second axis of a [16, 512, 64, 128] array, 128 rows at a time, carrying the
  running maximum from one tile of rows to the next in a slab that it resets to `-∞` at the first tile of each batch entry; the
  reference computes the same cumulative maximum as a window reduction over the array padded in front. Read at the extended
  reals both results are the array `cummax x`, whose entry `(b, t, h, c)` is the supremum of `x (b, s, h, c)` over `s ≤ t`:

  * the kernel, because within a tile the carried value after `n` rows is the carried-in value `max` the supremum of the tile's
    first `n` rows (Proof/Tile.lean), and across tiles a prefix of length `128·q + k` is the `max` of the prefix of length
    `128·q` and the next `k` terms (Proof/RunningMax.lean `pre_add`; Proof/Whole.lean, by induction over the grid points);
  * the reference, because a left fold of `max` from `⊥` over a window is the supremum of what the window looks at, the
    padding contributing `⊥` (Proof/Reference.lean).

  Only `max` and `⊥` occur, so the inputs' finiteness is never used. The ideal pass rewrote nothing in this kernel, so the
  statement that the idealized kernel is the kernel's idealization is `True`. The three runs (termination, no fault, arguments
  unchanged) are the generated frames for the two kernel programs and the host operations' run for the reference.
-/
import proofs.«139512_j70927089926350_2_alg».proof.Defs
import proofs.«139512_j70927089926350_2_alg».proof.Proof.Gen.Kernel
import proofs.«139512_j70927089926350_2_alg».proof.Proof.Gen.Kernel.Skeleton
import proofs.«139512_j70927089926350_2_alg».proof.Proof.Gen.Kernel.Launch
import proofs.«139512_j70927089926350_2_alg».proof.Proof.Gen.Kernel.Points
import proofs.«139512_j70927089926350_2_alg».proof.Proof.Gen.Kernel.Frame
import proofs.«139512_j70927089926350_2_alg».proof.Proof.Gen.KernelIdeal
import proofs.«139512_j70927089926350_2_alg».proof.Proof.Gen.KernelIdeal.Skeleton
import proofs.«139512_j70927089926350_2_alg».proof.Proof.Gen.KernelIdeal.Launch
import proofs.«139512_j70927089926350_2_alg».proof.Proof.Gen.KernelIdeal.Points
import proofs.«139512_j70927089926350_2_alg».proof.Proof.Gen.KernelIdeal.Frame
import proofs.«139512_j70927089926350_2_alg».proof.Proof.Gen.ReferenceIdeal
import proofs.«139512_j70927089926350_2_alg».proof.Proof.Gen.KernelIdeal.Value
import proofs.«139512_j70927089926350_2_alg».proof.Proof.Gen.Pre_finite_inputs
import proofs.«139512_j70927089926350_2_alg».proof.Proof.RefRun
import proofs.«139512_j70927089926350_2_alg».proof.Proof.Reference
import proofs.«139512_j70927089926350_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its host operations' run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the argument, both programs end with the result array at the running maximum of the argument
    along its second axis. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
